-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x1024x1024 : Shape := ⟨4, ![16, 3, 1024, 1024]⟩
abbrev S_ : Shape := ⟨0, ![]⟩

class Facts : Prop where
  bcast_S_S16x3x1024x1024 : S_.BroadcastsInDim S16x3x1024x1024 (![] : Fin 0 → Fin S16x3x1024x1024.rank)
  reducesTo_S16x3x1024x1024_S_d0_1_2_3 : S16x3x1024x1024.ReducesTo [0, 1, 2, 3] S_
  h_S_ : 0 < S_.numel

variable [Facts]

def fn {F : FTy → Type} [FloatOps F] (main_arg0 : FVec F S16x3x1024x1024 .f32) : IVec S_ 1 :=
  let main_v0 : FVec F S16x3x1024x1024 .f32 := Host.absf main_arg0
  let main_cst : FVec F S_ .f32 := constant S_ .f32 0x7F800000#32
  let main_v1 : FVec F S16x3x1024x1024 .f32 := broadcastInDim S16x3x1024x1024 ![] bcast_S_S16x3x1024x1024 main_cst
  let main_v2 : IVec S16x3x1024x1024 1 := cmpf .olt main_v0 main_v1
  let main_c : IVec S_ 1 := constantI S_ 1 1#1
  let main_v3 : IVec S_ 1 := (fun x v => Host.reduce IntOp.andi x v reducesTo_S16x3x1024x1024_S_d0_1_2_3 h_S_) main_v2 main_c
  main_v3
-- ==== Kernel.lean ====
abbrev S16x3x1024x1024 : Shape := ⟨4, ![16, 3, 1024, 1024]⟩
abbrev S48x1024x1024 : Shape := ⟨3, ![48, 1024, 1024]⟩
abbrev S1x1024x1024 : Shape := ⟨3, ![1, 1024, 1024]⟩
abbrev S1024x1024 : Shape := ⟨2, ![1024, 1024]⟩

abbrev nBuf : Space → Nat
  | .hbm => 4
  | .vmem => 4
  | .smem => 0
  | _ => 0

abbrev bufTy : (tb : Table) → Fin (tcTables nBuf tb) → BufTy
  | .hbm, ⟨0, _⟩ => ⟨S16x3x1024x1024, .f32⟩
  | .hbm, ⟨1, _⟩ => ⟨S48x1024x1024, .f32⟩
  | .hbm, ⟨2, _⟩ => ⟨S48x1024x1024, .f32⟩
  | .hbm, ⟨3, _⟩ => ⟨S16x3x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | _, _ => ⟨S16x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x3x1024x1024_S48x1024x1024 : S16x3x1024x1024.ShapeCasts S48x1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  iota_S1024x1024_d1_w32 : S1024x1024.Iotas .tc 32 [1]
  rotates_S1024x1024_d1 : S1024x1024.Rotates 1 none
  iota_S1024x1024_d0_w32 : S1024x1024.Iotas .tc 32 [0]
  rotates_S1024x1024_d0 : S1024x1024.Rotates 0 none
  shapeCasts_S1024x1024_S1x1024x1024 : S1024x1024.ShapeCasts S1x1024x1024
  shapeCasts_S48x1024x1024_S16x3x1024x1024 : S48x1024x1024.ShapeCasts S16x3x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S48x1024x1024.size a
  hwx0_0 : ∀ i : grid0.Coords, EltTy.bits .f32 = 32 ∨ (Rect.block (s := S48x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S48x1024x1024.size a
  hwx0_1 : ∀ i : grid0.Coords, EltTy.bits .f32 = 32 ∨ (Rect.block (s := S48x1024x1024) S1x1024x1024.size (cc0_transform_1 i) (hinb0_1 i)).WholeWords (EltTy.packing .f32)

variable [Facts₀]

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x3x1024x1024 : Shape := ⟨4, ![16, 3, 1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16x3x1024x1024, .f32⟩
  | .hbm, ⟨1, _⟩ => ⟨S_, .f32⟩
  | .hbm, ⟨2, _⟩ => ⟨S_, .f32⟩
  | .hbm, ⟨3, _⟩ => ⟨S16x3x1024x1024, .f32⟩
  | .hbm, ⟨4, _⟩ => ⟨S_, .f32⟩
  | .hbm, ⟨5, _⟩ => ⟨S_, .f32⟩
  | .hbm, ⟨6, _⟩ => ⟨S16x3x1024x1024, .f32⟩
  | _, _ => ⟨S16x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x3x1024x1024_S16x3x1024x1024_w1s1p0_0_w1s1p0_0_w3s1p1_1_w3s1p1_1 : S16x3x1024x1024.ReduceWindows (![1, 1, 3, 3] : Fin 4 → Nat) ![1, 1, 1, 1] ![0, 0, 1, 1] ![0, 0, 1, 1] S16x3x1024x1024
  h_S_ : 0 < S_.numel

variable [Facts₀]

class Facts : Prop extends Facts₀ where

variable [Facts]
-- ==== Proof.LibWindow.lean ====
/-
  Width-three windows with a padding value, in one and two dimensions.

  For a family `x` over `Fin n`, `nbr pad x i d` is the entry `i + d - 1` when that is an index and `pad` otherwise
  (`d = 0, 1, 2`: the left neighbour, the entry itself, the right neighbour). `win3` combines the three, left to right,
  by a binary operation. A plane `X : Fin H → Fin W → α` is windowed SEPARABLY by `sep` (first every row along its
  columns, then the result along the rows), or AT ONCE by `fold9`: the left fold, from the padding value, over the
  nine neighbours in row-major order, a neighbour outside the plane reading the padding value.

  THE LAW (`fold9_eq_sep`): when the operation is associative and the padding value is its left identity, the two
  agree. A row that is wholly outside the plane contributes `pad ∘ pad ∘ pad = pad`, which is what the outer window
  reads there; inside, regrouping nine terms three by three is associativity alone. Minimum with `⊤` and maximum
  with `⊥` on a lattice are the instances used: a flat 3×3 erosion and dilation.
-/
import Mathlib.Data.List.Range
import Mathlib.Data.Fin.Basic

namespace Cert.Morph

variable {α : Type}

/-- Entry `i + d - 1` of `x` when `1 ≤ i + d ≤ n`, the padding value otherwise. -/
def nbr {n : ℕ} (pad : α) (x : Fin n → α) (i : Fin n) (d : ℕ) : α :=
  if h : 1 ≤ i.val + d ∧ i.val + d - 1 < n then x ⟨i.val + d - 1, h.2⟩ else pad

/-- The middle of the window is the entry itself. -/
theorem nbr_one {n : ℕ} (pad : α) (x : Fin n → α) (i : Fin n) : nbr pad x i 1 = x i := by
  unfold nbr
  rw [dif_pos ⟨by omega, by have := i.isLt; omega⟩]
  exact congrArg x (Fin.ext (by simp))

/-- The width-three window at `i`: left neighbour, entry, right neighbour, combined left to right. -/
def win3 {n : ℕ} (op : α → α → α) (pad : α) (x : Fin n → α) (i : Fin n) : α :=
  op (op (nbr pad x i 0) (nbr pad x i 1)) (nbr pad x i 2)

/-- The separable 3×3 window: every row windowed along its columns, the result windowed along the rows. -/
def sep {H W : ℕ} (op : α → α → α) (pad : α) (X : Fin H → Fin W → α) (r : Fin H) (c : Fin W) : α :=
  win3 op pad (fun r' => win3 op pad (X r') c) r

/-- The neighbour of `(r, c)` at offset `(u - 1, w - 1)` when it is inside the plane, the padding value otherwise. -/
def nbr2 {H W : ℕ} (pad : α) (X : Fin H → Fin W → α) (r : Fin H) (c : Fin W) (u w : ℕ) : α :=
  if h : (1 ≤ r.val + u ∧ r.val + u - 1 < H) ∧ (1 ≤ c.val + w ∧ c.val + w - 1 < W) then
    X ⟨r.val + u - 1, h.1.2⟩ ⟨c.val + w - 1, h.2.2⟩
  else pad

/-- The 3×3 window at once: the left fold from the padding value over the nine neighbours in row-major order. -/
def fold9 {H W : ℕ} (op : α → α → α) (pad : α) (X : Fin H → Fin W → α) (r : Fin H) (c : Fin W) : α :=
  (List.range 9).foldl (fun acc n => op acc (nbr2 pad X r c (n / 3) (n % 3))) pad

/-- A neighbour of a neighbour, first along the columns then along the rows, is the two-dimensional neighbour. -/
theorem nbr_nbr {H W : ℕ} (pad : α) (X : Fin H → Fin W → α) (r : Fin H) (c : Fin W) (u w : ℕ) :
    nbr pad (fun r' => nbr pad (X r') c w) r u = nbr2 pad X r c u w := by
  unfold nbr nbr2
  by_cases hr : 1 ≤ r.val + u ∧ r.val + u - 1 < H
  · by_cases hc : 1 ≤ c.val + w ∧ c.val + w - 1 < W
    · rw [dif_pos hr]; dsimp only; rw [dif_pos hc, dif_pos ⟨hr, hc⟩]
    · rw [dif_pos hr]; dsimp only; rw [dif_neg hc, dif_neg (fun h => hc h.2)]
  · rw [dif_neg hr, dif_neg (fun h => hr h.1)]

/-- The neighbour of a pointwise combination of three families is the combination of their neighbours, the padding
    value being idempotent under the operation. -/
theorem nbr_op3 {n : ℕ} (op : α → α → α) (pad : α) (hpp : op pad pad = pad) (A B C : Fin n → α) (i : Fin n) (d : ℕ) :
    nbr pad (fun k => op (op (A k) (B k)) (C k)) i d = op (op (nbr pad A i d) (nbr pad B i d)) (nbr pad C i d) := by
  unfold nbr
  by_cases h : 1 ≤ i.val + d ∧ i.val + d - 1 < n
  · simp only [dif_pos h]
  · simp only [dif_neg h, hpp]

/-- THE LAW: for an associative operation with the padding value as left identity, the nine-term fold is the
    separable window. -/
theorem fold9_eq_sep {H W : ℕ} (op : α → α → α) (pad : α) (hassoc : ∀ a b c, op (op a b) c = op a (op b c))
    (hid : ∀ a, op pad a = a) (X : Fin H → Fin W → α) (r : Fin H) (c : Fin W) :
    fold9 op pad X r c = sep op pad X r c := by
  have hpp : op pad pad = pad := hid pad
  unfold sep
  rw [show (fun r' => win3 op pad (X r') c)
      = fun r' => op (op (nbr pad (X r') c 0) (nbr pad (X r') c 1)) (nbr pad (X r') c 2) from rfl]
  unfold win3
  rw [nbr_op3 op pad hpp, nbr_op3 op pad hpp, nbr_op3 op pad hpp]
  simp only [nbr_nbr]
  unfold fold9
  rw [show List.range 9 = [0, 1, 2, 3, 4, 5, 6, 7, 8] from rfl]
  simp only [List.foldl_cons, List.foldl_nil, Nat.reduceDiv, Nat.reduceMod]
  simp only [hid, hassoc]

end Cert.Morph
-- ==== Proof.LibRollMask.lean ====
/-
  A rotation masked at one end, read at an index: the neighbour along the rotated axis, or the padding value.

  A kernel asks for "the entry one step to the left, `pad` at the left edge" of a rank-two vector as a `tpu.dynamic_rotate`
  by one along the axis, of which the wrapped-around first position is then overwritten with a splat of `pad` through a
  comparison of the axis `tpu.iota` with zero; "one step to the right, `pad` at the right edge" is the rotation by the
  extent less one, masked where the iota equals the extent less one. A rotation by `s` reads position `j - s` modulo
  the extent, so the first is position `j - 1` away from the edge, the second `j + 1`; each masked form is therefore
  `Cert.Morph.nbr pad` of the line through the index, at offset `0` (left) or `2` (right). Stated for either axis of
  a vector of any extents below 2³², for any element type.
-/
import Idealize.ShloMosaic.Lib.KernelVsHost
import Idealize.ShloMosaic.Lib.Pipeline.Value
import Idealize.ShloMosaic.Lib.ValueIdx
import Idealize.ShloMosaic.Lib.Affine
import proofs.«120878_j75574244540569_1_alg».proof.Proof.LibWindow

namespace Cert.Morph

open Idealize.ShloMosaic Idealize.ShloMosaic.ValueIdx

variable {α : Type}

/-- One step back around a cycle of `n`, away from position zero, is the predecessor. -/
theorem back_one {n c : ℕ} (h1 : 1 ≤ c) (hc : c < n) : (c + n - 1 % n) % n = c - 1 := by
  rw [Nat.mod_eq_of_lt (by omega : 1 < n), show c + n - 1 = n + (c - 1) by omega, Nat.add_mod_left,
    Nat.mod_eq_of_lt (by omega)]

/-- `n - 1` steps back around a cycle of `n`, away from the last position, is the successor. -/
theorem back_all_but_one {n c : ℕ} (hc : c + 1 < n) : (c + n - (n - 1) % n) % n = c + 1 := by
  rw [Nat.mod_eq_of_lt (by omega : n - 1 < n), show c + n - (n - 1) = c + 1 by omega, Nat.mod_eq_of_lt hc]

/-- The comparison of a coordinate's 32-bit word with a word `e` is one exactly when the coordinate is `e`'s number. -/
theorem cmpi_coord {k : ℕ} (hk : k < 2 ^ 32) (e : BitVec 32) :
    IntOp.cmpi .eq (BitVec.ofNat 32 k) e = 1#1 ↔ k = e.toNat := by
  rw [IntOp.cmpi_eq]
  constructor
  · intro h; rw [← h, BitVec.toNat_ofNat, Nat.mod_eq_of_lt hk]
  · intro h; rw [h]; apply BitVec.eq_of_toNat_eq; rw [BitVec.toNat_ofNat]; exact Nat.mod_eq_of_lt e.isLt

section Axis1
variable {n0 n1 : ℕ} (h32 : n1 < 2 ^ 32)
  (hio : (⟨2, ![n0, n1]⟩ : Shape).Iotas .tc 32 [1]) (hr : (⟨2, ![n0, n1]⟩ : Shape).Rotates 1 none)
include h32

/-- Along the columns, to the LEFT: the rotation by one masked at column zero. -/
theorem rollmask_left_cols (z sb : BitVec 32) (hz : z.toNat = 0) (hsb : sb.toNat = 1) (pad : α)
    (P : (⟨2, ![n0, n1]⟩ : Shape).Idx → α) (r : Fin n0) (c : Fin n1) :
    select (cmpi .eq (iota .tc ⟨2, ![n0, n1]⟩ 32 [1] hio) (broadcast ⟨2, ![n0, n1]⟩ z)) (broadcast ⟨2, ![n0, n1]⟩ pad)
        (dynamicRotate 1 sb none P hr) (ix2 r c)
      = nbr pad (fun c' => P (ix2 r c')) c 0 := by
  show Scalar.select (IntOp.cmpi .eq (iota .tc ⟨2, ![n0, n1]⟩ 32 [1] hio (ix2 r c)) z) pad
    (dynamicRotate 1 sb none P hr (ix2 r c)) = _
  rw [iota_single_apply]
  show Scalar.select (IntOp.cmpi .eq (BitVec.ofNat 32 c.val) z) pad (dynamicRotate 1 sb none P hr (ix2 r c)) = _
  have hc := c.isLt
  unfold nbr
  by_cases h0 : c.val = 0
  · rw [(cmpi_coord (by show c.val < 2 ^ 32; omega) z).mpr (by rw [hz]; exact h0), select_one, dif_neg (by omega)]
  · have hb : IntOp.cmpi .eq (BitVec.ofNat 32 c.val) z = 0#1 :=
      eq_zero_of_ne_one (fun h => h0 (by rw [← hz]; exact (cmpi_coord (by show c.val < 2 ^ 32; omega) z).mp h))
    rw [hb, select_zero, dif_pos ⟨by omega, by omega⟩]
    refine dynamicRotate_apply 1 sb P hr (ix2 r c) (ix2 r ⟨c.val + 0 - 1, by omega⟩) fun b => ?_
    match b with
    | ⟨0, _⟩ => rfl
    | ⟨1, _⟩ =>
      show c.val + 0 - 1 = (c.val + n1 - sb.toNat % n1) % n1
      rw [hsb, back_one (by omega) hc]; omega

/-- Along the columns, to the RIGHT: the rotation by the extent less one masked at the last column. -/
theorem rollmask_right_cols (e sb : BitVec 32) (he : e.toNat = n1 - 1) (hsb : sb.toNat = n1 - 1) (pad : α)
    (P : (⟨2, ![n0, n1]⟩ : Shape).Idx → α) (r : Fin n0) (c : Fin n1) :
    select (cmpi .eq (iota .tc ⟨2, ![n0, n1]⟩ 32 [1] hio) (broadcast ⟨2, ![n0, n1]⟩ e)) (broadcast ⟨2, ![n0, n1]⟩ pad)
        (dynamicRotate 1 sb none P hr) (ix2 r c)
      = nbr pad (fun c' => P (ix2 r c')) c 2 := by
  show Scalar.select (IntOp.cmpi .eq (iota .tc ⟨2, ![n0, n1]⟩ 32 [1] hio (ix2 r c)) e) pad
    (dynamicRotate 1 sb none P hr (ix2 r c)) = _
  rw [iota_single_apply]
  show Scalar.select (IntOp.cmpi .eq (BitVec.ofNat 32 c.val) e) pad (dynamicRotate 1 sb none P hr (ix2 r c)) = _
  have hc := c.isLt
  unfold nbr
  by_cases h0 : c.val = n1 - 1
  · rw [(cmpi_coord (by show c.val < 2 ^ 32; omega) e).mpr (by rw [he]; exact h0), select_one, dif_neg (by omega)]
  · have hb : IntOp.cmpi .eq (BitVec.ofNat 32 c.val) e = 0#1 :=
      eq_zero_of_ne_one (fun h => h0 (by rw [← he]; exact (cmpi_coord (by show c.val < 2 ^ 32; omega) e).mp h))
    rw [hb, select_zero, dif_pos ⟨by omega, by omega⟩]
    refine dynamicRotate_apply 1 sb P hr (ix2 r c) (ix2 r ⟨c.val + 2 - 1, by omega⟩) fun b => ?_
    match b with
    | ⟨0, _⟩ => rfl
    | ⟨1, _⟩ =>
      show c.val + 2 - 1 = (c.val + n1 - sb.toNat % n1) % n1
      rw [hsb, back_all_but_one (by omega)]; omega

end Axis1

section Axis0
variable {n0 n1 : ℕ} (h32 : n0 < 2 ^ 32)
  (hio : (⟨2, ![n0, n1]⟩ : Shape).Iotas .tc 32 [0]) (hr : (⟨2, ![n0, n1]⟩ : Shape).Rotates 0 none)
include h32

/-- Along the rows, UPWARDS: the rotation by one masked at row zero. -/
theorem rollmask_up_rows (z sb : BitVec 32) (hz : z.toNat = 0) (hsb : sb.toNat = 1) (pad : α)
    (P : (⟨2, ![n0, n1]⟩ : Shape).Idx → α) (r : Fin n0) (c : Fin n1) :
    select (cmpi .eq (iota .tc ⟨2, ![n0, n1]⟩ 32 [0] hio) (broadcast ⟨2, ![n0, n1]⟩ z)) (broadcast ⟨2, ![n0, n1]⟩ pad)
        (dynamicRotate 0 sb none P hr) (ix2 r c)
      = nbr pad (fun r' => P (ix2 r' c)) r 0 := by
  show Scalar.select (IntOp.cmpi .eq (iota .tc ⟨2, ![n0, n1]⟩ 32 [0] hio (ix2 r c)) z) pad
    (dynamicRotate 0 sb none P hr (ix2 r c)) = _
  rw [iota_single_apply]
  show Scalar.select (IntOp.cmpi .eq (BitVec.ofNat 32 r.val) z) pad (dynamicRotate 0 sb none P hr (ix2 r c)) = _
  have hc := r.isLt
  unfold nbr
  by_cases h0 : r.val = 0
  · rw [(cmpi_coord (by show r.val < 2 ^ 32; omega) z).mpr (by rw [hz]; exact h0), select_one, dif_neg (by omega)]
  · have hb : IntOp.cmpi .eq (BitVec.ofNat 32 r.val) z = 0#1 :=
      eq_zero_of_ne_one (fun h => h0 (by rw [← hz]; exact (cmpi_coord (by show r.val < 2 ^ 32; omega) z).mp h))
    rw [hb, select_zero, dif_pos ⟨by omega, by omega⟩]
    refine dynamicRotate_apply 0 sb P hr (ix2 r c) (ix2 ⟨r.val + 0 - 1, by omega⟩ c) fun b => ?_
    match b with
    | ⟨0, _⟩ =>
      show r.val + 0 - 1 = (r.val + n0 - sb.toNat % n0) % n0
      rw [hsb, back_one (by omega) hc]; omega
    | ⟨1, _⟩ => rfl

/-- Along the rows, DOWNWARDS: the rotation by the extent less one masked at the last row. -/
theorem rollmask_down_rows (e sb : BitVec 32) (he : e.toNat = n0 - 1) (hsb : sb.toNat = n0 - 1) (pad : α)
    (P : (⟨2, ![n0, n1]⟩ : Shape).Idx → α) (r : Fin n0) (c : Fin n1) :
    select (cmpi .eq (iota .tc ⟨2, ![n0, n1]⟩ 32 [0] hio) (broadcast ⟨2, ![n0, n1]⟩ e)) (broadcast ⟨2, ![n0, n1]⟩ pad)
        (dynamicRotate 0 sb none P hr) (ix2 r c)
      = nbr pad (fun r' => P (ix2 r' c)) r 2 := by
  show Scalar.select (IntOp.cmpi .eq (iota .tc ⟨2, ![n0, n1]⟩ 32 [0] hio (ix2 r c)) e) pad
    (dynamicRotate 0 sb none P hr (ix2 r c)) = _
  rw [iota_single_apply]
  show Scalar.select (IntOp.cmpi .eq (BitVec.ofNat 32 r.val) e) pad (dynamicRotate 0 sb none P hr (ix2 r c)) = _
  have hc := r.isLt
  unfold nbr
  by_cases h0 : r.val = n0 - 1
  · rw [(cmpi_coord (by show r.val < 2 ^ 32; omega) e).mpr (by rw [he]; exact h0), select_one, dif_neg (by omega)]
  · have hb : IntOp.cmpi .eq (BitVec.ofNat 32 r.val) e = 0#1 :=
      eq_zero_of_ne_one (fun h => h0 (by rw [← he]; exact (cmpi_coord (by show r.val < 2 ^ 32; omega) e).mp h))
    rw [hb, select_zero, dif_pos ⟨by omega, by omega⟩]
    refine dynamicRotate_apply 0 sb P hr (ix2 r c) (ix2 ⟨r.val + 2 - 1, by omega⟩ c) fun b => ?_
    match b with
    | ⟨0, _⟩ =>
      show r.val + 2 - 1 = (r.val + n0 - sb.toNat % n0) % n0
      rw [hsb, back_all_but_one (by omega)]; omega
    | ⟨1, _⟩ => rfl

end Axis0

end Cert.Morph
-- ==== Proof.KernelBlock.lean ====
/-
  What the kernel body computes on one plane, index by index.

  The body loads one [1, 1024, 1024] block, drops the unit axis, and runs four masked window passes on the plane:
  a minimum along the columns then along the rows, both padded with +∞ (the flat 3×3 erosion, done separably), then a
  maximum along the columns and along the rows padded with -∞ (the dilation of the erosion), and stores the result
  with the unit axis back. Each pass combines, left to right, "the entry one step before, the padding value at the
  edge", the entry, and "the entry one step after, the padding value at the edge"; the two outer terms are rotations
  masked at one end (read at an index in LibRollMask), so a pass is `Cert.Morph.win3` along its axis and two passes are
  `Cert.Morph.sep`. At the extended reals the block the body stores is therefore, at `(0, r, c)`,
  `sep max (-∞) (sep min (+∞) plane) r c`.
-/
import proofs.«120878_j75574244540569_1_alg».proof.Proof.Gen.KernelIdeal.Skeleton
import proofs.«120878_j75574244540569_1_alg».proof.Proof.LibRollMask
import Idealize.ShloMosaic.Lib.Pipeline.Value
import Idealize.ShloMosaic.Lib.ValueIdx
import Idealize.ShloMosaic.PureOps.Ideal

noncomputable section

namespace Cert.KernelIdeal.Block

open Idealize.ShloMosaic Idealize.ShloMosaic.ValueIdx Cert.KernelIdeal Cert.KernelIdeal.Gen Cert.Morph

variable {F : FTy → Type} [FloatOps F]

/-- One masked pass along the COLUMNS of a plane by a pointwise binary operation `opv`: the left neighbour (the
    padding value in column 0), the entry, the right neighbour (the padding value in column 1023). -/
def passCols (opv : FVec F S1024x1024 .f32 → FVec F S1024x1024 .f32 → FVec F S1024x1024 .f32) (pad : F .f32)
    (P : FVec F S1024x1024 .f32) : FVec F S1024x1024 .f32 :=
  opv (opv (select (cmpi .eq (iota .tc S1024x1024 32 [1] iota_S1024x1024_d1_w32) (broadcast S1024x1024 0#32))
        (broadcast S1024x1024 pad) (dynamicRotate 1 1#32 none P rotates_S1024x1024_d1)) P)
    (select (cmpi .eq (iota .tc S1024x1024 32 [1] iota_S1024x1024_d1_w32) (broadcast S1024x1024 1023#32))
      (broadcast S1024x1024 pad) (dynamicRotate 1 1023#32 none P rotates_S1024x1024_d1))

/-- One masked pass along the ROWS. -/
def passRows (opv : FVec F S1024x1024 .f32 → FVec F S1024x1024 .f32 → FVec F S1024x1024 .f32) (pad : F .f32)
    (P : FVec F S1024x1024 .f32) : FVec F S1024x1024 .f32 :=
  opv (opv (select (cmpi .eq (iota .tc S1024x1024 32 [0] iota_S1024x1024_d0_w32) (broadcast S1024x1024 0#32))
        (broadcast S1024x1024 pad) (dynamicRotate 0 1#32 none P rotates_S1024x1024_d0)) P)
    (select (cmpi .eq (iota .tc S1024x1024 32 [0] iota_S1024x1024_d0_w32) (broadcast S1024x1024 1023#32))
      (broadcast S1024x1024 pad) (dynamicRotate 0 1023#32 none P rotates_S1024x1024_d0))

/-- The erosion payload is the two minimum passes, padded with the word of +∞, on the block less its unit axis. -/
theorem erosion_eq (x0 : Vec F S1x1024x1024 .f32) :
    k0_pay2 x0 = passRows minimumf (Scalar.ofBits .f32 0x7F800000#32)
      (passCols minimumf (Scalar.ofBits .f32 0x7F800000#32) (shapeCast S1024x1024 x0 shapeCasts_S1x1024x1024_S1024x1024)) :=
  rfl

/-- The stored payload is the two maximum passes, padded with the word of -∞, on the erosion, the unit axis added back. -/
theorem stored_eq (x0 : Vec F S1x1024x1024 .f32) :
    k0_pay1 (k0_pay2 x0) (k0_pay3 x0) (k0_pay4 x0) k0_pay5 (k0_pay6 (F := F))
      = shapeCast S1x1024x1024 (passRows maximumf (Scalar.ofBits .f32 0xFF800000#32)
          (passCols maximumf (Scalar.ofBits .f32 0xFF800000#32) (k0_pay2 x0))) shapeCasts_S1024x1024_S1x1024x1024 :=
  rfl

/-! ## At the extended reals -/

/-- A pass along the columns is the width-three window of the row. -/
theorem passCols_apply (op : Ideal .f32 → Ideal .f32 → Ideal .f32)
    (opv : FVec Ideal S1024x1024 .f32 → FVec Ideal S1024x1024 .f32 → FVec Ideal S1024x1024 .f32)
    (hop : ∀ a b i, opv a b i = op (a i) (b i)) (pad : Ideal .f32) (P : FVec Ideal S1024x1024 .f32) (r c : Fin 1024) :
    passCols opv pad P (ix2 r c) = win3 op pad (fun c' => P (ix2 r c')) c := by
  unfold passCols win3
  rw [hop, hop, nbr_one]
  congr 1
  · congr 1
    exact rollmask_left_cols (by norm_num) iota_S1024x1024_d1_w32 rotates_S1024x1024_d1 0#32 1#32 rfl rfl pad P r c
  · exact rollmask_right_cols (by norm_num) iota_S1024x1024_d1_w32 rotates_S1024x1024_d1 1023#32 1023#32 rfl rfl pad P r c

/-- A pass along the rows is the width-three window of the column. -/
theorem passRows_apply (op : Ideal .f32 → Ideal .f32 → Ideal .f32)
    (opv : FVec Ideal S1024x1024 .f32 → FVec Ideal S1024x1024 .f32 → FVec Ideal S1024x1024 .f32)
    (hop : ∀ a b i, opv a b i = op (a i) (b i)) (pad : Ideal .f32) (P : FVec Ideal S1024x1024 .f32) (r c : Fin 1024) :
    passRows opv pad P (ix2 r c) = win3 op pad (fun r' => P (ix2 r' c)) r := by
  unfold passRows win3
  rw [hop, hop, nbr_one]
  congr 1
  · congr 1
    exact rollmask_up_rows (by norm_num) iota_S1024x1024_d0_w32 rotates_S1024x1024_d0 0#32 1#32 rfl rfl pad P r c
  · exact rollmask_down_rows (by norm_num) iota_S1024x1024_d0_w32 rotates_S1024x1024_d0 1023#32 1023#32 rfl rfl pad P r c

/-- The two passes together are the separable window. -/
theorem passes_apply (op : Ideal .f32 → Ideal .f32 → Ideal .f32)
    (opv : FVec Ideal S1024x1024 .f32 → FVec Ideal S1024x1024 .f32 → FVec Ideal S1024x1024 .f32)
    (hop : ∀ a b i, opv a b i = op (a i) (b i)) (pad : Ideal .f32) (P : FVec Ideal S1024x1024 .f32) (r c : Fin 1024) :
    passRows opv pad (passCols opv pad P) (ix2 r c) = sep op pad (fun r' c' => P (ix2 r' c')) r c := by
  rw [passRows_apply op opv hop]
  unfold sep
  exact congrArg (fun g => win3 op pad g r) (funext fun r' => passCols_apply op opv hop pad P r' c)

/-- THE BLOCK: at the extended reals the body's stored block reads, at `(0, r, c)`, the dilation of the erosion of the
    loaded block's plane at `(r, c)`, both as separable 3×3 windows. -/
theorem stored_apply (x0 : Vec Ideal S1x1024x1024 .f32) (u : Fin 1) (r c : Fin 1024) :
    k0_pay1 (k0_pay2 x0) (k0_pay3 x0) (k0_pay4 x0) k0_pay5 (k0_pay6 (F := Ideal)) (ix3 u r c)
      = sep max (Ideal.ofBits .f32 0xFF800000#32)
          (sep min (Ideal.ofBits .f32 0x7F800000#32) (fun r' c' => x0 (ix3 0 r' c'))) r c := by
  rw [stored_eq, shapeCast_addUnit_apply]
  refine (congrArg (fun i => passRows maximumf (Scalar.ofBits .f32 0xFF800000#32)
    (passCols maximumf (Scalar.ofBits .f32 0xFF800000#32) (k0_pay2 x0)) i)
      (show (fun a : Fin 2 => ix3 u r c a.succ) = ix2 r c from
        funext fun a => by match a with | ⟨0, _⟩ => rfl | ⟨1, _⟩ => rfl)).trans ?_
  rw [passes_apply max maximumf (fun _ _ _ => rfl)]
  refine congrArg (fun g => sep max (Ideal.ofBits .f32 0xFF800000#32) g r c) (funext fun r' => funext fun c' => ?_)
  rw [erosion_eq, passes_apply min minimumf (fun _ _ _ => rfl)]
  refine congrArg (fun g => sep min (Ideal.ofBits .f32 0x7F800000#32) g r' c') (funext fun r'' => funext fun c'' => ?_)
  rw [shapeCast_dropUnit_apply]
  exact congrArg x0 (funext fun a => by match a with | ⟨0, _⟩ => rfl | ⟨1, _⟩ => rfl | ⟨2, _⟩ => rfl)

end Cert.KernelIdeal.Block

end
-- ==== Proof.Opening.lean ====
/-
  THE SPECIFICATION: the morphological opening of every plane of a [16, 3, 1024, 1024] array by a flat 3×3
  structuring element, on the extended reals.

  The erosion of a plane takes at each pixel the minimum over its 3×3 neighbourhood, a neighbour outside the plane
  reading +∞; the dilation takes the maximum, a neighbour outside reading -∞; the opening is the dilation of the
  erosion. Both are written here in their SEPARABLE form (`Cert.Morph.sep`: along the columns, then along the rows).
  The words `0x7F800000` and `0xFF800000` denote +∞ = ⊤ and -∞ = ⊥ of the extended reals, the identities of minimum
  and maximum, so by `Cert.Morph.fold9_eq_sep` each separable window is also the fold over the nine neighbours at once.
-/
import Idealize.ShloMosaic.PureOps.Ideal
import Idealize.ShloMosaic.Lib.ValueIdx
import proofs.«120878_j75574244540569_1_alg».proof.Proof.LibWindow

noncomputable section

namespace Cert.Morph

open Idealize.ShloMosaic Idealize.ShloMosaic.ValueIdx

/-- The word of +∞ is the top of the extended reals. -/
theorem posInf_eq : Ideal.ofBits .f32 0x7F800000#32 = (⊤ : EReal) := by simp [Ideal.ofBits, Ideal.ieee]

/-- The word of -∞ is the bottom. -/
theorem negInf_eq : Ideal.ofBits .f32 0xFF800000#32 = (⊥ : EReal) := by simp [Ideal.ofBits, Ideal.ieee]

/-- +∞ is the identity of the minimum, -/
theorem min_posInf (a : EReal) : min (Ideal.ofBits .f32 0x7F800000#32) a = a := by rw [posInf_eq]; exact min_top_left a

/-- and -∞ of the maximum. -/
theorem max_negInf (a : EReal) : max (Ideal.ofBits .f32 0xFF800000#32) a = a := by rw [negInf_eq]; exact max_bot_left a

/-- The opening of one plane: the 3×3 dilation (maximum, -∞ outside) of the 3×3 erosion (minimum, +∞ outside). -/
def openPlane {H W : ℕ} (P : Fin H → Fin W → EReal) : Fin H → Fin W → EReal :=
  sep max (Ideal.ofBits .f32 0xFF800000#32) (sep min (Ideal.ofBits .f32 0x7F800000#32) P)

/-- The opening of every plane `(n, ch, ·, ·)` of the array. -/
def opening (X : (⟨4, ![16, 3, 1024, 1024]⟩ : Shape).Idx → EReal) : (⟨4, ![16, 3, 1024, 1024]⟩ : Shape).Idx → EReal :=
  fun i => openPlane (fun r c => X (ix4 (i 0) (i 1) r c)) (i 2) (i 3)

/-- The erosion as the fold over the nine neighbours from +∞ is the separable one. -/
theorem erode9_eq {H W : ℕ} (P : Fin H → Fin W → EReal) (r : Fin H) (c : Fin W) :
    fold9 min (Ideal.ofBits .f32 0x7F800000#32) P r c = sep min (Ideal.ofBits .f32 0x7F800000#32) P r c :=
  fold9_eq_sep min _ min_assoc min_posInf P r c

/-- The dilation as the fold over the nine neighbours from -∞ is the separable one. -/
theorem dilate9_eq {H W : ℕ} (P : Fin H → Fin W → EReal) (r : Fin H) (c : Fin W) :
    fold9 max (Ideal.ofBits .f32 0xFF800000#32) P r c = sep max (Ideal.ofBits .f32 0xFF800000#32) P r c :=
  fold9_eq_sep max _ max_assoc max_negInf P r c

end Cert.Morph

end
-- ==== Proof.Planes.lean ====
/-
  The 48 planes and the two host reshapes around the kernel.

  The kernel works on the argument reshaped to [48, 1024, 1024] — plane `3 n + ch` of the reshaped array is plane
  `(n, ch)` of the argument, both arrays having the same row-major order — opens each plane, and its result is reshaped
  back to [16, 3, 1024, 1024]. Opening the planes of the reshaped argument and reshaping back is the opening of the
  argument.
-/
import Idealize.ShloMosaic.Lib.Pipeline.Value
import proofs.«120878_j75574244540569_1_alg».proof.Proof.Opening

noncomputable section

namespace Cert.Morph

open Idealize.ShloMosaic Idealize.ShloMosaic.ValueIdx

/-- Every plane of a [48, 1024, 1024] array opened. -/
def planes (Y : (⟨3, ![48, 1024, 1024]⟩ : Shape).Idx → EReal) : (⟨3, ![48, 1024, 1024]⟩ : Shape).Idx → EReal :=
  fun i => openPlane (fun r q => Y (ix3 (i 0) r q)) (i 1) (i 2)

/-- The reshape to 48 planes, read at plane `3 n + ch`: the argument's plane `(n, ch)`. -/
theorem reshape48_apply (X : (⟨4, ![16, 3, 1024, 1024]⟩ : Shape).Idx → EReal)
    (h : (⟨4, ![16, 3, 1024, 1024]⟩ : Shape).ShapeCasts ⟨3, ![48, 1024, 1024]⟩) (a : Fin 16) (b : Fin 3) (r q : Fin 1024) :
    shapeCast ⟨3, ![48, 1024, 1024]⟩ X h (ix3 (⟨a.val * 3 + b.val, by omega⟩ : Fin 48) r q) = X (ix4 a b r q) :=
  shapeCast_apply X h _ (ix4 a b r q) (by
    rw [Shape.rowMajor_val_three, Shape.rowMajor_val_four]
    show ((a.val * 3 + b.val) * 1024 + r.val) * 1024 + q.val = ((a.val * 3 + b.val) * 1024 + r.val) * 1024 + q.val
    rfl)

/-- Reshape, open the 48 planes, reshape back: the opening. -/
theorem reshape_planes_reshape (X : (⟨4, ![16, 3, 1024, 1024]⟩ : Shape).Idx → EReal)
    (h : (⟨4, ![16, 3, 1024, 1024]⟩ : Shape).ShapeCasts ⟨3, ![48, 1024, 1024]⟩)
    (h' : (⟨3, ![48, 1024, 1024]⟩ : Shape).ShapeCasts ⟨4, ![16, 3, 1024, 1024]⟩) :
    shapeCast ⟨4, ![16, 3, 1024, 1024]⟩ (planes (shapeCast ⟨3, ![48, 1024, 1024]⟩ X h)) h' = opening X := by
  funext i
  obtain ⟨a, b, r, q, rfl⟩ : ∃ (a : Fin 16) (b : Fin 3) (r q : Fin 1024), i = ix4 a b r q :=
    ⟨i 0, i 1, i 2, i 3, eq_ix4 i⟩
  rw [shapeCast_apply _ h' (ix4 a b r q) (ix3 (⟨a.val * 3 + b.val, by omega⟩ : Fin 48) r q) (by
    rw [Shape.rowMajor_val_three, Shape.rowMajor_val_four]
    show ((a.val * 3 + b.val) * 1024 + r.val) * 1024 + q.val = ((a.val * 3 + b.val) * 1024 + r.val) * 1024 + q.val
    rfl)]
  show openPlane (fun r' q' => shapeCast ⟨3, ![48, 1024, 1024]⟩ X h (ix3 (⟨a.val * 3 + b.val, by omega⟩ : Fin 48) r' q')) r q
    = openPlane (fun r' q' => X (ix4 a b r' q')) r q
  exact congrArg (fun g => openPlane g r q) (funext fun r' => funext fun q' => reshape48_apply X h a b r' q')

end Cert.Morph

end
-- ==== Proof.KernelValue.lean ====
/-
  What the idealized kernel leaves in its result array: the opening of its argument.

  The pipeline has 48 points; at point `t` both windows sit on plane `t` of their [48, 1024, 1024] arrays (block index
  `(t, 0, 0)`, decided over the grid), so an element `(0, r, q)` of either block is element `(t, r, q)` of its array.
  What point `t` writes back is the body's stored block of the input block (KernelBlock: the opening of that plane),
  which is block `t` of ONE function of the input array, `Cert.Morph.planes`; the 48 blocks cover the output array, so
  after the region it holds `planes` of the input array. The input array is the host reshape of the argument and the
  program's result the host reshape of the output array, and reshape, open the planes, reshape back is the opening
  (Planes).
-/
import proofs.«120878_j75574244540569_1_alg».proof.Proof.Gen.KernelIdeal.Frame
import proofs.«120878_j75574244540569_1_alg».proof.Proof.KernelBlock
import proofs.«120878_j75574244540569_1_alg».proof.Proof.Planes
import Idealize.ShloMosaic.Lib.Pipeline.Value
import Idealize.ShloMosaic.Lib.StableHlo.Run

set_option maxRecDepth 16384

noncomputable section

namespace Cert.KernelIdeal.OpenValue

open Idealize.ShloMosaic Idealize.ShloMosaic.TcCoe Idealize.ShloMosaic.ValueIdx Idealize.SL.Sem
  Idealize.ShloMosaic.StableHlo
open Cert.KernelIdeal Cert.KernelIdeal.Gen Cert.KernelIdeal.Block Cert.Morph

variable (m : (ℓ : Loc nD τ sig) → Buf (Elt Ideal) ℓ) (ρ : Dev nD → PrngReg)

theorem zero_offsets : (![0, 0, 0] : Fin 3 → Nat) = fun _ => 0 := funext fun a => by fin_cases a <;> rfl

/-- The printed index maps, decided over the grid: at point `t` both windows are on plane `t`. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- Plane `t` as an index of the 48. -/
abbrev planeOf (t : Fin cfg0.N) : Fin 48 := ⟨t.val, Nat.lt_of_lt_of_eq t.isLt N_0⟩

/-- An array read through the INPUT window's block at point `t`: element `(·, r, q)` of the block is element
    `(t, r, q)` of the array. -/
theorem read_in_blk (G : S48x1024x1024.Idx → EReal) (t : Fin cfg0.N) (y : S1x1024x1024.Idx) :
    ((cfg0.win 0).blk t).view.read (Elt Ideal) G y = G (ix3 (planeOf t) (y 1) (y 2)) := by
  obtain ⟨e0, e1, e2, -, -, -⟩ := idx_facts t
  show G (((cfg0.win 0).blk t).view.emb y) = _
  refine congrArg G (funext fun a => Fin.ext ?_)
  have h0 : (y 0).val < 1 := (y 0).isLt
  match a with
  | ⟨0, _⟩ => show win0_0.index t (0 : Fin 3) * 1 + 1 * (y 0).val = t.val; omega
  | ⟨1, _⟩ => show win0_0.index t (1 : Fin 3) * 1024 + 1 * (y 1).val = (y 1).val; omega
  | ⟨2, _⟩ => show win0_0.index t (2 : Fin 3) * 1024 + 1 * (y 2).val = (y 2).val; omega

/-- The same through the OUTPUT window's block. -/
theorem read_out_blk (G : S48x1024x1024.Idx → EReal) (t : Fin cfg0.N) (y : S1x1024x1024.Idx) :
    ((cfg0.win 1).blk t).view.read (Elt Ideal) G y = G (ix3 (planeOf t) (y 1) (y 2)) := by
  obtain ⟨-, -, -, e0, e1, e2⟩ := idx_facts t
  show G (((cfg0.win 1).blk t).view.emb y) = _
  refine congrArg G (funext fun a => Fin.ext ?_)
  have h0 : (y 0).val < 1 := (y 0).isLt
  match a with
  | ⟨0, _⟩ => show win0_1.index t (0 : Fin 3) * 1 + 1 * (y 0).val = t.val; omega
  | ⟨1, _⟩ => show win0_1.index t (1 : Fin 3) * 1024 + 1 * (y 1).val = (y 1).val; omega
  | ⟨2, _⟩ => show win0_1.index t (2 : Fin 3) * 1024 + 1 * (y 2).val = (y 2).val; omega

/-- WHAT POINT `t` WRITES BACK is block `t` of the opened planes of the input array as the region finds it. -/
theorem flushed_eq (c : Dev nD) (t : Fin cfg0.N) :
    (dats m 0 c).flushed 1 t = ((cfg0.win 1).blk t).view.read (Elt Ideal) (planes (V m c main_v0)) := by
  show (cfg0.win 1).cut (grid0.coords t) ((dats m 0 c).after 1 t) = _
  rw [after0_1]
  unfold out0_1
  rw [View.canon_unit_zero zero_offsets]
  simp only [View.ld_unit_zero (S := S1x1024x1024) zero_offsets]
  funext j
  obtain ⟨u, r, q, rfl⟩ : ∃ (u : Fin 1) (r q : Fin 1024), j = ix3 u r q := ⟨j 0, j 1, j 2, eq_ix3 j⟩
  refine (stored_apply (iblk m c 0 t) u r q).trans ?_
  refine (congrArg (fun g => openPlane g r q) (funext fun r' => funext fun q' => ?_)).trans
    (read_out_blk (planes (V m c main_v0)) t (ix3 u r q)).symm
  exact read_in_blk (V m c main_v0) t (ix3 0 r' q')

/-- An index of the output array is in point `t`'s block iff each coordinate is in the block's range on its axis. -/
theorem mem_blk (t : Fin cfg0.N) (i : S48x1024x1024.Idx) :
    i ∈ ((cfg0.win 1).blk t).view.set ↔ ∀ a : Fin 3, win0_1.index t a * S1x1024x1024.size a ≤ (i a).val
      ∧ (i a).val < win0_1.index t a * S1x1024x1024.size a + S1x1024x1024.size a := by
  show i ∈ ((View.whole main_v1).slice (win0_1.rect t)).set ↔ _
  rw [View.set_slice_whole, Rect.mem_set_unit]
  exact Iff.rfl

/-- Every index of the output array is in the block of the point of its plane. -/
theorem cover (i : S48x1024x1024.Idx) :
    ∃ t : Fin cfg0.N, (cfg0.win 1).flush t = true ∧ i ∈ ((cfg0.win 1).blk t).view.set := by
  have hi0 : (i 0).val < 48 := (i 0).isLt
  have hi1 : (i 1).val < 1024 := (i 1).isLt
  have hi2 : (i 2).val < 1024 := (i 2).isLt
  let t : Fin cfg0.N := ⟨(i 0).val, by rw [show cfg0.N = 48 from N_0]; exact hi0⟩
  obtain ⟨-, -, -, e0, e1, e2⟩ := idx_facts t
  have e0' : win0_1.index t (0 : Fin 3) = (i 0).val := e0
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1024 ≤ (i 1).val ∧ (i 1).val < win0_1.index t (1 : Fin 3) * 1024 + 1024; omega
  | ⟨2, _⟩ => show win0_1.index t (2 : Fin 3) * 1024 ≤ (i 2).val ∧ (i 2).val < win0_1.index t (2 : Fin 3) * 1024 + 1024; omega

/-- THE OUTPUT ARRAY after the region: the opened planes of the input array. -/
theorem final (c : Dev nD) : (dats m 0 c).arrAt 1 cfg0.N = planes (V m c main_v0) :=
  (dats m 0 c).arrAt_eq_of_cover 1 (planes (V m c main_v0)) (fun t _ => flushed_eq m c t) cover

/-- The input array as the region finds it: the host reshape of the argument. -/
theorem entry_eq (c : Dev nD) :
    (V m c main_v0 : S48x1024x1024.Idx → EReal)
      = shapeCast S48x1024x1024 (m ((c : Thread nD τ).loc main_arg0)) shapeCasts_S16x3x1024x1024_S48x1024x1024 := by
  show StableHlo.after hostOps0 (fun b => m (c, b)) (Proc.devRef .tc main_v0) = _
  after_results
  rfl

/-- The program's result after the host line that follows the region: the reshape of the output array. -/
theorem tail_eq (c : Dev nD) :
    Pipeline.afterTail₀ cfgs (dats m) 0 (V0 m) [hostOps1] c main_v2
      = shapeCast S16x3x1024x1024 (planes (V m c main_v0)) shapeCasts_S48x1024x1024_S16x3x1024x1024 := by
  unfold Pipeline.afterTail₀
  show StableHlo.after hostOps1 _ (Proc.devRef .tc main_v2) = _
  after_results
  have e := (Pipeline.withArrays_arr spec0 launch0.win.arr_inj c (V0 m c) (fun w => (dats m 0 c).arrAt w cfg0.N) 1).trans
    (final m c)
  funext i
  exact congrArg (fun A : S48x1024x1024.Idx → EReal =>
    shapeCast S16x3x1024x1024 A shapeCasts_S48x1024x1024_S16x3x1024x1024 i) e

/-- THE RUN: every weakly fair execution of the idealized kernel's @main terminates with the result array at the
    opening of the argument array, the argument unchanged. -/
theorem run : θ_run defs (onTc (τ := τ) (main (F := Ideal))) ⟨m, fun _ => 0, ρ⟩ (fun r => ∀ c : Dev nD,
      r.2.mem ((c.tc : Thread nD τ).loc main_v2) = opening (m ((c.tc : Thread nD τ).loc main_arg0))
      ∧ r.2.mem ((c.tc : Thread nD τ).loc main_arg0) = m ((c.tc : Thread nD τ).loc main_arg0)) :=
  (θ_run defs _ _).mono (fun r h c =>
    ⟨((h c).2 main_v2 (Pipeline.mem_restRefs_of main_v2 (by decide) (by decide))).trans
        ((tail_eq m c).trans (by rw [entry_eq]; exact reshape_planes_reshape _ _ _)),
      ((h c).2 main_arg0 (Pipeline.mem_restRefs_of main_arg0 (by decide) (by decide))).trans (W_main_arg0 m (dats m) c)⟩)
    (run_main m ρ)

end Cert.KernelIdeal.OpenValue

end
-- ==== Proof.LibReduceWindow3x3.lean ====
/-
  A host `reduce_window` with a 3×3 window over the last two axes of a rank-four array, stride one, padded by one on
  each side of those two axes (jax's SAME padding), read at an index.

  By definition the result at `(a, b, r, c)` is the left fold of the body, from the initial value, over the window's
  positions in row-major order; position `n` of the `[1, 1, 3, 3]` window has coordinates `(0, 0, n / 3, n % 3)`, and
  reads the operand at `(a, b, r + n / 3 - 1, c + n % 3 - 1)` when that lies inside it and the initial value otherwise.
  That is `Cert.Morph.fold9` of the plane `(a, b, ·, ·)` with the initial value as padding: the nine neighbours in
  row-major order. Stated for any extents, any element type and any body.
-/
import Idealize.ShloMosaic.PureOps
import Idealize.ShloMosaic.Lib.ValueIdx
import proofs.«120878_j75574244540569_1_alg».proof.Proof.LibWindow

namespace Cert.Morph

open Idealize.ShloMosaic Idealize.ShloMosaic.ValueIdx

variable {α : Type}

/-- The numbers of the elements of `Fin N`, in order, are the numbers below `N`. -/
theorem map_val_finRange (N : ℕ) : (List.finRange N).map Fin.val = List.range N := by
  apply List.ext_getElem <;> simp

/-- A left fold over `Fin N` whose step reads only the position's number is the fold over the numbers below `N`. -/
theorem foldl_finRange_val {β : Type} (N : ℕ) (g : β → ℕ → β) (v : β) :
    (List.finRange N).foldl (fun acc n => g acc n.val) v = (List.range N).foldl g v := by
  rw [← map_val_finRange, List.foldl_map]

variable {A B H W : ℕ}

/-- The coordinates of a position of the `[1, 1, 3, 3]` window: none on the two unit axes, the quotient and the
    remainder by three on the other two. -/
theorem window_coords (n : Fin (⟨4, ![1, 1, 3, 3]⟩ : Shape).numel) :
    (((⟨4, ![1, 1, 3, 3]⟩ : Shape).rowMajor.symm n) 0).val = 0 ∧ (((⟨4, ![1, 1, 3, 3]⟩ : Shape).rowMajor.symm n) 1).val = 0
      ∧ (((⟨4, ![1, 1, 3, 3]⟩ : Shape).rowMajor.symm n) 2).val = n.val / 3
      ∧ (((⟨4, ![1, 1, 3, 3]⟩ : Shape).rowMajor.symm n) 3).val = n.val % 3 := by
  generalize hk : (⟨4, ![1, 1, 3, 3]⟩ : Shape).rowMajor.symm n = k
  have hn : n = (⟨4, ![1, 1, 3, 3]⟩ : Shape).rowMajor k := by rw [← hk, Equiv.apply_symm_apply]
  have hv : n.val = (((k 0).val * 1 + (k 1).val) * 3 + (k 2).val) * 3 + (k 3).val := by
    rw [hn, Shape.rowMajor_val_four]; rfl
  have k0 : (k 0).val < 1 := (k 0).isLt
  have k1 : (k 1).val < 1 := (k 1).isLt
  have k2 : (k 2).val < 3 := (k 2).isLt
  have k3 : (k 3).val < 3 := (k 3).isLt
  omega

/-- ONE POSITION of the window, `k`, with nothing on its two unit axes: the padded operand read at `(a, b, r, c)`
    shifted by `k` less the low padding is the two-dimensional neighbour of `(r, c)` at `(k 2, k 3)` in the plane
    `(a, b, ·, ·)`, the padding value where that falls outside. -/
theorem window_cell (x : (⟨4, ![A, B, H, W]⟩ : Shape).Idx → α) (v : α) (a : Fin A) (b : Fin B) (r : Fin H) (c : Fin W)
    (k : (⟨4, ![1, 1, 3, 3]⟩ : Shape).Idx) (k0 : (k 0).val = 0) (k1 : (k 1).val = 0) :
    (if hin : ∀ d : Fin 4, (![0, 0, 1, 1] : Fin 4 → ℕ) d ≤ (ix4 a b r c d).val * (![1, 1, 1, 1] : Fin 4 → ℕ) d + (k d).val
          ∧ (ix4 a b r c d).val * (![1, 1, 1, 1] : Fin 4 → ℕ) d + (k d).val - (![0, 0, 1, 1] : Fin 4 → ℕ) d
            < (⟨4, ![A, B, H, W]⟩ : Shape).size d then
        x (fun d => ⟨(ix4 a b r c d).val * (![1, 1, 1, 1] : Fin 4 → ℕ) d + (k d).val - (![0, 0, 1, 1] : Fin 4 → ℕ) d, (hin d).2⟩)
      else v)
      = nbr2 v (fun r' c' => x (ix4 a b r' c')) r c (k 2).val (k 3).val := by
  have ha := a.isLt
  have hb := b.isLt
  split_ifs with hin
  · have h2 : 1 ≤ r.val * 1 + (k 2).val ∧ r.val * 1 + (k 2).val - 1 < H := hin 2
    have h3 : 1 ≤ c.val * 1 + (k 3).val ∧ c.val * 1 + (k 3).val - 1 < W := hin 3
    have hc : (1 ≤ r.val + (k 2).val ∧ r.val + (k 2).val - 1 < H) ∧ (1 ≤ c.val + (k 3).val ∧ c.val + (k 3).val - 1 < W) := by
      omega
    unfold nbr2
    rw [dif_pos hc]
    refine congrArg x (funext fun d => Fin.ext ?_)
    match d with
    | ⟨0, _⟩ => show a.val * 1 + (k 0).val - 0 = a.val; omega
    | ⟨1, _⟩ => show b.val * 1 + (k 1).val - 0 = b.val; omega
    | ⟨2, _⟩ => show r.val * 1 + (k 2).val - 1 = r.val + (k 2).val - 1; omega
    | ⟨3, _⟩ => show c.val * 1 + (k 3).val - 1 = c.val + (k 3).val - 1; omega
  · unfold nbr2
    rw [dif_neg]
    intro hc
    apply hin
    intro d
    match d with
    | ⟨0, _⟩ => show 0 ≤ a.val * 1 + (k 0).val ∧ a.val * 1 + (k 0).val - 0 < A; omega
    | ⟨1, _⟩ => show 0 ≤ b.val * 1 + (k 1).val ∧ b.val * 1 + (k 1).val - 0 < B; omega
    | ⟨2, _⟩ => show 1 ≤ r.val * 1 + (k 2).val ∧ r.val * 1 + (k 2).val - 1 < H; omega
    | ⟨3, _⟩ => show 1 ≤ c.val * 1 + (k 3).val ∧ c.val * 1 + (k 3).val - 1 < W; omega

/-- THE READ: a 3×3 SAME `reduce_window` over the last two axes, at `(a, b, r, c)`, is the nine-term fold of the
    plane `(a, b, ·, ·)` from the initial value. -/
theorem reduceWindow_3x3_apply {u : Shape} (f : α → α → α) (x : (⟨4, ![A, B, H, W]⟩ : Shape).Idx → α) (init : u.Idx → α)
    (h : (⟨4, ![A, B, H, W]⟩ : Shape).ReduceWindows (![1, 1, 3, 3] : Fin 4 → Nat) ![1, 1, 1, 1] ![0, 0, 1, 1] ![0, 0, 1, 1]
      ⟨4, ![A, B, H, W]⟩) (hu : 0 < u.numel) (a : Fin A) (b : Fin B) (r : Fin H) (c : Fin W) :
    Host.reduceWindow f ![1, 1, 3, 3] ![1, 1, 1, 1] ![0, 0, 1, 1] ![0, 0, 1, 1] x init h hu (ix4 a b r c)
      = fold9 f (init (Shape.Idx.first hu)) (fun r' c' => x (ix4 a b r' c')) r c := by
  unfold Host.reduceWindow fold9
  dsimp only
  refine (List.foldl_ext _ (fun acc n => f acc (nbr2 (init (Shape.Idx.first hu)) (fun r' c' => x (ix4 a b r' c')) r c
    (n.val / 3) (n.val % 3))) _ (fun acc n _ => congrArg (f acc) ?_)).trans
    (foldl_finRange_val _ (fun acc n => f acc (nbr2 (init (Shape.Idx.first hu)) (fun r' c' => x (ix4 a b r' c')) r c
      (n / 3) (n % 3))) _)
  obtain ⟨k0, k1, k2, k3⟩ := window_coords n
  rw [← k2, ← k3]
  exact window_cell x (init (Shape.Idx.first hu)) a b r c _ k0 k1

end Cert.Morph
-- ==== Proof.RefValue.lean ====
/-
  The reference computes the opening.

  Its two `reduce_window`s — a minimum from +∞ then a maximum from -∞, each over a 3×3 window on the last two axes
  with one element of padding on every side — read at an index as the folds over the nine neighbours
  (LibReduceWindow3x3), the padding reading the initial value; each fold is the separable window because its initial
  value is the operation's identity (Opening: `erode9_eq`, `dilate9_eq`).
-/
import proofs.«120878_j75574244540569_1_alg».proof.Proof.Gen.ReferenceIdeal.Read
import proofs.«120878_j75574244540569_1_alg».proof.Proof.LibReduceWindow3x3
import proofs.«120878_j75574244540569_1_alg».proof.Proof.Opening

noncomputable section

namespace Cert.ReferenceIdeal.RefValue

open Idealize.ShloMosaic Idealize.ShloMosaic.ValueIdx Cert.ReferenceIdeal Cert.ReferenceIdeal.Gen Cert.ReferenceIdeal.Read
  Cert.Morph

/-- The minimum window at an index: the erosion of the plane. -/
theorem erosion_apply (x : S16x3x1024x1024.Idx → EReal) (a : Fin 16) (b : Fin 3) (r c : Fin 1024) :
    val_main_v1 (F := Ideal) x (ix4 a b r c)
      = sep min (Ideal.ofBits .f32 0x7F800000#32) (fun r' c' => x (ix4 a b r' c')) r c := by
  unfold val_main_v1
  rw [reduceWindow_3x3_apply]
  exact erode9_eq _ r c

/-- The reference's result is the opening of its argument. -/
theorem result_eq (x : S16x3x1024x1024.Idx → EReal) : val_main_v3 (F := Ideal) x = opening x := by
  funext i
  obtain ⟨a, b, r, c, rfl⟩ : ∃ (a : Fin 16) (b : Fin 3) (r c : Fin 1024), i = ix4 a b r c :=
    ⟨i 0, i 1, i 2, i 3, eq_ix4 i⟩
  unfold val_main_v3
  rw [reduceWindow_3x3_apply]
  refine (dilate9_eq _ r c).trans ?_
  show _ = openPlane (fun r' c' => x (ix4 a b r' c')) r c
  unfold openPlane
  exact congrArg (fun g => sep max (Ideal.ofBits .f32 0xFF800000#32) g r c)
    (funext fun r' => funext fun c' => erosion_apply x a b r' c')

end Cert.ReferenceIdeal.RefValue

end
-- ==== Proof.lean ====
/-
  A Pallas kernel for the morphological OPENING of every [1024, 1024] plane of a float32[16, 3, 1024, 1024] array by a
  flat 3×3 structuring element, against jax's `reduce_window` reference, on the extended reals.

  The reference erodes (a 3×3 windowed minimum, the padding reading +∞) and then dilates (a 3×3 windowed maximum, the
  padding reading -∞). The kernel does each SEPARABLY on one plane per grid point: a width-three minimum along the
  columns, then along the rows, then a width-three maximum along the columns and along the rows, each "neighbour or
  padding" term a rotation by one position masked at the edge it wrapped around. Since +∞ is the identity of the
  minimum and -∞ of the maximum, and both operations are associative, a row of the window that falls outside the
  plane contributes the padding value either way, and the nine-neighbour fold regroups into three rows of three
  (Proof/LibWindow.lean, `fold9_eq_sep`): both programs compute `Cert.Morph.opening` of the argument
  (Proof/KernelValue.lean, `run`; Proof/RefValue.lean, `result_eq`). No infinity is excluded anywhere: the law is
  lattice algebra, and the precondition is not used. The kernel's idealization rewrote nothing, so it is
  the kernel's own text read at the extended reals.
-/
import proofs.«120878_j75574244540569_1_alg».proof.Defs
import proofs.«120878_j75574244540569_1_alg».proof.Proof.Gen.Kernel
import proofs.«120878_j75574244540569_1_alg».proof.Proof.Gen.Kernel.Skeleton
import proofs.«120878_j75574244540569_1_alg».proof.Proof.Gen.Kernel.Launch
import proofs.«120878_j75574244540569_1_alg».proof.Proof.Gen.Kernel.Points
import proofs.«120878_j75574244540569_1_alg».proof.Proof.Gen.Kernel.Frame
import proofs.«120878_j75574244540569_1_alg».proof.Proof.Gen.KernelIdeal
import proofs.«120878_j75574244540569_1_alg».proof.Proof.Gen.KernelIdeal.Skeleton
import proofs.«120878_j75574244540569_1_alg».proof.Proof.Gen.KernelIdeal.Launch
import proofs.«120878_j75574244540569_1_alg».proof.Proof.Gen.KernelIdeal.Points
import proofs.«120878_j75574244540569_1_alg».proof.Proof.Gen.KernelIdeal.Frame
import proofs.«120878_j75574244540569_1_alg».proof.Proof.Gen.ReferenceIdeal
import proofs.«120878_j75574244540569_1_alg».proof.Proof.Gen.ReferenceIdeal.Run
import proofs.«120878_j75574244540569_1_alg».proof.Proof.Gen.ReferenceIdeal.Read
import proofs.«120878_j75574244540569_1_alg».proof.Proof.Gen.Pre_finite_inputs
import proofs.«120878_j75574244540569_1_alg».proof.Proof.KernelValue
import proofs.«120878_j75574244540569_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its argument alone. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is host operations only: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the opening of the argument: the kernel plane by plane and separably, the reference by
    two nine-neighbour folds. -/
theorem algebraic : Cert.algebraic_KernelIdeal_ReferenceIdeal := by
  intro m ρ m' ρ' _ hagree
  refine ⟨fun c => Cert.Morph.opening (m ((c.tc : Thread Cert.KernelIdeal.nD Cert.KernelIdeal.τ).loc Cert.KernelIdeal.main_arg0)),
    Cert.KernelIdeal.OpenValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
